-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x10000 : Shape := ⟨2, ![1024, 10000]⟩
abbrev S400000 : Shape := ⟨1, ![400000]⟩
abbrev S5000 : Shape := ⟨1, ![5000]⟩
abbrev S400000x2 : Shape := ⟨2, ![400000, 2]⟩
abbrev S_ : Shape := ⟨0, ![]⟩

class Facts : Prop where
  bcast_S_S1024x10000 : S_.BroadcastsInDim S1024x10000 (![] : Fin 0 → Fin S1024x10000.rank)
  reducesTo_S1024x10000_S_d0_1 : S1024x10000.ReducesTo [0, 1] S_
  h_S_ : 0 < S_.numel
  bcast_S_S400000 : S_.BroadcastsInDim S400000 (![] : Fin 0 → Fin S400000.rank)
  reducesTo_S400000_S_d0 : S400000.ReducesTo [0] S_
  bcast_S_S5000 : S_.BroadcastsInDim S5000 (![] : Fin 0 → Fin S5000.rank)
  reducesTo_S5000_S_d0 : S5000.ReducesTo [0] S_

variable [Facts]

def fn {F : FTy → Type} [FloatOps F] (main_arg0 : FVec F S1024x10000 .f32) (main_arg1 : FVec F S400000 .f32) (main_arg2 : FVec F S5000 .f32) (main_arg3 : IVec S400000x2 32) : IVec S_ 1 :=
  let main_v0 : FVec F S1024x10000 .f32 := Host.absf main_arg0
  let main_cst : FVec F S_ .f32 := constant S_ .f32 0x7F800000#32
  let main_v1 : FVec F S1024x10000 .f32 := broadcastInDim S1024x10000 ![] bcast_S_S1024x10000 main_cst
  let main_v2 : IVec S1024x10000 1 := cmpf .olt main_v0 main_v1
  let main_c : IVec S_ 1 := constantI S_ 1 1#1
  let main_v3 : IVec S_ 1 := (fun x v => Host.reduce IntOp.andi x v reducesTo_S1024x10000_S_d0_1 h_S_) main_v2 main_c
  let main_v4 : FVec F S400000 .f32 := Host.absf main_arg1
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S5000 .f32 := Host.absf main_arg2
  let main_cst_2 : FVec F S_ .f32 := constant S_ .f32 0x7F800000#32
  let main_v10 : FVec F S5000 .f32 := broadcastInDim S5000 ![] bcast_S_S5000 main_cst_2
  let main_v11 : IVec S5000 1 := cmpf .olt main_v9 main_v10
  let main_c_3 : IVec S_ 1 := constantI S_ 1 1#1
  let main_v12 : IVec S_ 1 := (fun x v => Host.reduce IntOp.andi x v reducesTo_S5000_S_d0 h_S_) main_v11 main_c_3
  let main_v13 : IVec S_ 1 := andi main_v8 main_v12
  main_v13
-- ==== Kernel.lean ====
abbrev S1024x10000 : Shape := ⟨2, ![1024, 10000]⟩
abbrev S400000 : Shape := ⟨1, ![400000]⟩
abbrev S5000 : Shape := ⟨1, ![5000]⟩
abbrev S400000x2 : Shape := ⟨2, ![400000, 2]⟩
abbrev S_ : Shape := ⟨0, ![]⟩
abbrev S10000x5000 : Shape := ⟨2, ![10000, 5000]⟩
abbrev S400000x1 : Shape := ⟨2, ![400000, 1]⟩
abbrev S10000x5120 : Shape := ⟨2, ![10000, 5120]⟩
abbrev S5120 : Shape := ⟨1, ![5120]⟩
abbrev S1x5120 : Shape := ⟨2, ![1, 5120]⟩
abbrev S1024x5120 : Shape := ⟨2, ![1024, 5120]⟩
abbrev S256x10000 : Shape := ⟨2, ![256, 10000]⟩
abbrev S10000x512 : Shape := ⟨2, ![10000, 512]⟩
abbrev S1x512 : Shape := ⟨2, ![1, 512]⟩
abbrev S256x512 : Shape := ⟨2, ![256, 512]⟩
abbrev S1024x5000 : Shape := ⟨2, ![1024, 5000]⟩

abbrev nBuf : Space → Nat
  | .hbm => 39
  | .vmem => 8
  | .smem => 0
  | _ => 0

abbrev bufTy : (tb : Table) → Fin (tcTables nBuf tb) → BufTy
  | .hbm, ⟨0, _⟩ => ⟨S1024x10000, .f32⟩
  | .hbm, ⟨1, _⟩ => ⟨S400000, .f32⟩
  | .hbm, ⟨2, _⟩ => ⟨S5000, .f32⟩
  | .hbm, ⟨3, _⟩ => ⟨S400000x2, .i32⟩
  | .hbm, ⟨4, _⟩ => ⟨S_, .f32⟩
  | .hbm, ⟨5, _⟩ => ⟨S10000x5000, .f32⟩
  | .hbm, ⟨6, _⟩ => ⟨S400000x1, .i32⟩
  | .hbm, ⟨7, _⟩ => ⟨S400000, .i32⟩
  | .hbm, ⟨8, _⟩ => ⟨S400000x1, .i32⟩
  | .hbm, ⟨9, _⟩ => ⟨S400000, .i32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S400000x1, .i32⟩
  | .hbm, ⟨25, _⟩ => ⟨S400000x1, .i32⟩
  | .hbm, ⟨26, _⟩ => ⟨S400000x2, .i32⟩
  | .hbm, ⟨27, _⟩ => ⟨S10000x5000, .f32⟩
  | .hbm, ⟨28, _⟩ => ⟨S_, .i32⟩
  | .hbm, ⟨29, _⟩ => ⟨S_, .f32⟩
  | .hbm, ⟨30, _⟩ => ⟨S10000x5120, .f32⟩
  | .hbm, ⟨31, _⟩ => ⟨S_, .i32⟩
  | .hbm, ⟨32, _⟩ => ⟨S_, .f32⟩
  | .hbm, ⟨33, _⟩ => ⟨S5120, .f32⟩
  | .hbm, ⟨34, _⟩ => ⟨S1x5120, .f32⟩
  | .hbm, ⟨35, _⟩ => ⟨S1024x10000, .bf16⟩
  | .hbm, ⟨36, _⟩ => ⟨S10000x5120, .bf16⟩
  | .hbm, ⟨37, _⟩ => ⟨S1024x5120, .f32⟩
  | .hbm, ⟨38, _⟩ => ⟨S1024x5000, .f32⟩
  | .local _ .vmem, ⟨0, _⟩ => ⟨S256x10000, .bf16⟩
  | .local _ .vmem, ⟨1, _⟩ => ⟨S256x10000, .bf16⟩
  | .local _ .vmem, ⟨2, _⟩ => ⟨S10000x512, .bf16⟩
  | .local _ .vmem, ⟨3, _⟩ => ⟨S10000x512, .bf16⟩
  | .local _ .vmem, ⟨4, _⟩ => ⟨S1x512, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | _, _ => ⟨S1024x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_call0_v0 : Ref sig .tc := ⟨.hbm, 29, rfl⟩
abbrev main_v19 : Ref sig .tc := ⟨.hbm, 30, rfl⟩
abbrev main_c_4 : Ref sig .tc := ⟨.hbm, 31, rfl⟩
abbrev main_call1_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x10000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S10000x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S10000x5000 : S_.BroadcastsInDim S10000x5000 (![] : Fin 0 → Fin S10000x5000.rank)
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  concatenates_S400000x1_S400000x1_S400000x2_d1 : Shape.Concatenates [S400000x1, S400000x1] S400000x2 1
  pads_S10000x5000_S10000x5120_000_01200 : S10000x5000.Pads (![0, 0] : Fin 2 → Nat) ![0, 120] ![0, 0] S10000x5120
  h_S_ : 0 < S_.numel
  pads_S5000_S5120_01200 : S5000.Pads (![0] : Fin 1 → Nat) ![120] ![0] S5120
  shapeCasts_S5120_S1x5120 : S5120.ShapeCasts S1x5120
  bitsLt_bf16_f32 : FTy.bits .bf16 < FTy.bits .f32
  inb_S256x10000_S256x10000_0_0 : ∀ a, (![0, 0] : Fin 2 → Nat) a + S256x10000.size a ≤ S256x10000.size a
  h_S256x10000 : 0 < S256x10000.numel
  shapeCasts_S256x10000_S256x10000 : S256x10000.ShapeCasts S256x10000
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  slices_S1024x5120_S1024x5000_0_0 : S1024x5120.Slices ![0, 0] S1024x5000
  scatter_S10000x5000_S400000x2_S400000_n_01_01_1_wf : ScatterDims.WF S10000x5000 S400000x2 S400000 [] [0, 1] [0, 1] 1
  dot_S256x10000_S10000x512_S256x512_1_0_0_1_n_n_wf : DotDims.WF S256x10000 S10000x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10000.size a ≤ S1024x10000.size a
  hwx0_0 : ∀ i : grid0.Coords, EltTy.bits .bf16 = 32 ∨ (Rect.block (s := S1024x10000) S256x10000.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x512.size a ≤ S10000x5120.size a
  hwx0_1 : ∀ i : grid0.Coords, EltTy.bits .bf16 = 32 ∨ (Rect.block (s := S10000x5120) S10000x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x5120.size a
  hwx0_2 : ∀ i : grid0.Coords, EltTy.bits .f32 = 32 ∨ (Rect.block (s := S1x5120) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S1024x5120.size a
  hwx0_3 : ∀ i : grid0.Coords, EltTy.bits .f32 = 32 ∨ (Rect.block (s := S1024x5120) S256x512.size (cc0_transform_3 i) (hinb0_3 i)).WholeWords (EltTy.packing .f32)

variable [Facts₀]

def scatter_S10000x5000_S400000x2_S400000_n_01_01_1 : ScatterDims S10000x5000 S400000x2 S400000 where
  updateWindowDims := []
  insertedWindowDims := [0, 1]
  scatterDimsToOperandDims := [0, 1]
  indexVectorDim := 1
  wf := scatter_S10000x5000_S400000x2_S400000_n_01_01_1_wf
def dot_S256x10000_S10000x512_S256x512_1_0_0_1_n_n : DotDims S256x10000 S10000x512 S256x512 where
  lhsContracting := [1]
  rhsContracting := [0]
  lhsNonContracting := [0]
  rhsNonContracting := [1]
  lhsBatch := []
  rhsBatch := []
  wf := dot_S256x10000_S10000x512_S256x512_1_0_0_1_n_n_wf

abbrev win0_0 : Pipeline.Window sig grid0 :=
  Pipeline.Window.ofSpec (Memref.whole main_v22) S256x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S10000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x10000 : Shape := ⟨2, ![1024, 10000]⟩
abbrev S400000 : Shape := ⟨1, ![400000]⟩
abbrev S5000 : Shape := ⟨1, ![5000]⟩
abbrev S400000x2 : Shape := ⟨2, ![400000, 2]⟩
abbrev S_ : Shape := ⟨0, ![]⟩
abbrev S10000x5000 : Shape := ⟨2, ![10000, 5000]⟩
abbrev S400000x1 : Shape := ⟨2, ![400000, 1]⟩
abbrev S1024x5000 : Shape := ⟨2, ![1024, 5000]⟩
abbrev S1x5000 : Shape := ⟨2, ![1, 5000]⟩

abbrev nBuf : Space → Nat
  | .hbm => 33
  | .vmem => 0
  | .smem => 0
  | _ => 0

abbrev bufTy : (tb : Table) → Fin (tcTables nBuf tb) → BufTy
  | .hbm, ⟨0, _⟩ => ⟨S1024x10000, .f32⟩
  | .hbm, ⟨1, _⟩ => ⟨S400000, .f32⟩
  | .hbm, ⟨2, _⟩ => ⟨S5000, .f32⟩
  | .hbm, ⟨3, _⟩ => ⟨S400000x2, .i32⟩
  | .hbm, ⟨4, _⟩ => ⟨S_, .f32⟩
  | .hbm, ⟨5, _⟩ => ⟨S10000x5000, .f32⟩
  | .hbm, ⟨6, _⟩ => ⟨S400000x1, .i32⟩
  | .hbm, ⟨7, _⟩ => ⟨S400000, .i32⟩
  | .hbm, ⟨8, _⟩ => ⟨S400000x1, .i32⟩
  | .hbm, ⟨9, _⟩ => ⟨S400000, .i32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S400000x1, .i32⟩
  | .hbm, ⟨25, _⟩ => ⟨S400000x1, .i32⟩
  | .hbm, ⟨26, _⟩ => ⟨S400000x2, .i32⟩
  | .hbm, ⟨27, _⟩ => ⟨S10000x5000, .f32⟩
  | .hbm, ⟨28, _⟩ => ⟨S1024x5000, .f32⟩
  | .hbm, ⟨29, _⟩ => ⟨S1x5000, .f32⟩
  | .hbm, ⟨30, _⟩ => ⟨S1024x5000, .f32⟩
  | .hbm, ⟨31, _⟩ => ⟨S1024x5000, .f32⟩
  | .hbm, ⟨32, _⟩ => ⟨S1024x5000, .f32⟩
  | _, _ => ⟨S1024x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S10000x5000 : S_.BroadcastsInDim S10000x5000 (![] : Fin 0 → Fin S10000x5000.rank)
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  concatenates_S400000x1_S400000x1_S400000x2_d1 : Shape.Concatenates [S400000x1, S400000x1] S400000x2 1
  bcast_S5000_S1x5000_1 : S5000.BroadcastsInDim S1x5000 (![1] : Fin 1 → Fin S1x5000.rank)
  bcast_S1x5000_S1024x5000_0_1 : S1x5000.BroadcastsInDim S1024x5000 (![0, 1] : Fin 2 → Fin S1024x5000.rank)
  scatter_S10000x5000_S400000x2_S400000_n_01_01_1_wf : ScatterDims.WF S10000x5000 S400000x2 S400000 [] [0, 1] [0, 1] 1
  dot_S1024x10000_S10000x5000_S1024x5000_1_0_0_1_n_n_wf : DotDims.WF S1024x10000 S10000x5000 S1024x5000 [1] [0] [0] [1] [] []

variable [Facts₀]

def scatter_S10000x5000_S400000x2_S400000_n_01_01_1 : ScatterDims S10000x5000 S400000x2 S400000 where
  updateWindowDims := []
  insertedWindowDims := [0, 1]
  scatterDimsToOperandDims := [0, 1]
  indexVectorDim := 1
  wf := scatter_S10000x5000_S400000x2_S400000_n_01_01_1_wf
def dot_S1024x10000_S10000x5000_S1024x5000_1_0_0_1_n_n : DotDims S1024x10000 S10000x5000 S1024x5000 where
  lhsContracting := [1]
  rhsContracting := [0]
  lhsNonContracting := [0]
  rhsNonContracting := [1]
  lhsBatch := []
  rhsBatch := []
  wf := dot_S1024x10000_S10000x5000_S1024x5000_1_0_0_1_n_n_wf

class Facts : Prop extends Facts₀ where

variable [Facts]
-- ==== Proof.Spec.lean ====
/-
  The function both programs compute, on the extended reals.

  A dense layer with a tanh activation: for a batch row `r` and an output unit `u`,

      out[r, u] = tanh ( (Σ_k x[r, k] · w[k, u]) + b[u] ),     k over the 10000 input features,

  where `w` is the 10000 × 5000 dense weight matrix (both programs build it by the same scatter-add of the
  400000 stored values, so it enters here as one opaque matrix) and `b` the bias vector.

  The kernel works on a matrix padded with 120 extra columns, to 5120, and a bias padded likewise and laid out
  as a single row; it produces a 1024 × 5120 array of which only the first 5000 columns are kept. `layerWide` is
  that wider array as a function of the padded operands; `layerWide_eq` says that on the kept columns it is the
  dense layer of the unpadded operands, provided the padded operands agree with the unpadded ones there. The
  padded columns never enter a kept entry: entry (r, u) reads only column u of the weights and entry u of the bias.
  No algebraic law is used beyond rewriting equal terms, so nothing here depends on the inputs being finite.
-/
import Idealize.ShloMosaic.PureOps.Ideal
import Idealize.ShloMosaic.Lib.ValueIdx

noncomputable section

namespace Cert.DenseTanh

open Idealize.ShloMosaic Idealize.ShloMosaic.ValueIdx
open scoped BigOperators

/-- The dense layer: entry (r, u) is tanh of the inner product of row r of `x` with column u of `w`, plus `b u`. -/
def layer (x : FVec Ideal ⟨2, ![1024, 10000]⟩ .f32) (w : FVec Ideal ⟨2, ![10000, 5000]⟩ .f32)
    (b : FVec Ideal ⟨1, ![5000]⟩ .f32) : FVec Ideal ⟨2, ![1024, 5000]⟩ .f32 :=
  fun i => Ideal.tanh ((∑ k : Fin 10000, x (ix2 (i 0) k) * w (ix2 k (i 1))) + b (ix1 (i 1)))

/-- The same formula over the padded width 5120, the bias given as a 1 × 5120 row. -/
def layerWide (x : FVec Ideal ⟨2, ![1024, 10000]⟩ .bf16) (w : FVec Ideal ⟨2, ![10000, 5120]⟩ .bf16)
    (b : FVec Ideal ⟨2, ![1, 5120]⟩ .f32) : FVec Ideal ⟨2, ![1024, 5120]⟩ .f32 :=
  fun i => Ideal.tanh ((∑ k : Fin 10000, x (ix2 (i 0) k) * w (ix2 k (i 1))) + b (ix2 (0 : Fin 1) (i 1)))

/-- A column index below 5000 seen as a column index of the padded width. -/
abbrev widen (u : Fin 5000) : Fin 5120 := ⟨u.val, by have := u.isLt; omega⟩

/-- On a kept column the wide array is the dense layer: if the wide operands agree with the narrow ones on the
    first 5000 columns (and the inputs everywhere), entry (r, u) of one is entry (r, u) of the other. -/
theorem layerWide_eq (x : FVec Ideal ⟨2, ![1024, 10000]⟩ .f32) (w : FVec Ideal ⟨2, ![10000, 5000]⟩ .f32)
    (b : FVec Ideal ⟨1, ![5000]⟩ .f32)
    (x' : FVec Ideal ⟨2, ![1024, 10000]⟩ .bf16) (w' : FVec Ideal ⟨2, ![10000, 5120]⟩ .bf16)
    (b' : FVec Ideal ⟨2, ![1, 5120]⟩ .f32)
    (hx : ∀ (r : Fin 1024) (k : Fin 10000), x' (ix2 r k) = x (ix2 r k))
    (hw : ∀ (k : Fin 10000) (u : Fin 5000), w' (ix2 k (widen u)) = w (ix2 k u))
    (hb : ∀ u : Fin 5000, b' (ix2 (0 : Fin 1) (widen u)) = b (ix1 u))
    (r : Fin 1024) (u : Fin 5000) :
    layerWide x' w' b' (ix2 r (widen u)) = layer x w b (ix2 r u) := by
  show Ideal.tanh ((∑ k : Fin 10000, x' (ix2 r k) * w' (ix2 k (widen u))) + b' (ix2 (0 : Fin 1) (widen u)))
    = Ideal.tanh ((∑ k : Fin 10000, x (ix2 r k) * w (ix2 k u)) + b (ix1 u))
  rw [hb u]
  exact congrArg (fun s => Ideal.tanh (s + b (ix1 u))) (Finset.sum_congr rfl fun k _ => by rw [hx r k, hw k u])

end Cert.DenseTanh

end
-- ==== Proof.RefLayer.lean ====
/-
  The reference program computes the dense layer.

  Its last stage is tanh of (inputs · weights + bias broadcast over the batch), the weights being the scatter-add
  stage. Read at an index (r, u): the matrix product is the sum over the 10000 features k of inputs[r, k] times
  weights[k, u]; the bias, broadcast first to a 1 × 5000 row and then down the 1024 rows, is bias[u]; the host's tanh
  and sum are the extended reals' own. That is `DenseTanh.layer` of the inputs, the scatter stage and the bias.
-/
import proofs.«180887_j10359461117965_1_alg».proof.Proof.Gen.ReferenceIdeal.Read
import proofs.«180887_j10359461117965_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The reference's result stage is the dense layer of the inputs, the scattered weight matrix and the bias. -/
theorem result_eq (x0 : (⟨S1024x10000, .f32⟩ : BufTy).Contents (Elt Ideal)) (x1 : (⟨S400000, .f32⟩ : BufTy).Contents (Elt Ideal))
    (x2 : (⟨S5000, .f32⟩ : BufTy).Contents (Elt Ideal)) (x3 : (⟨S400000x2, .i32⟩ : BufTy).Contents (Elt Ideal)) :
    val_main_v23 (F := Ideal) x0 x1 x2 x3 = Cert.DenseTanh.layer x0 (val_main_v18 (F := Ideal) x1 x3) x2 := by
  funext i
  -- the product's operand indices at (i, k) are (row of i, k) and (k, column of i)
  have el : ∀ k : Fin 10000, lidx_main_v19 i k = ix2 (i 0) k := fun k =>
    funext fun a => Fin.ext (by match a with | ⟨0, _⟩ => rfl | ⟨1, _⟩ => rfl)
  have er : ∀ k : Fin 10000, ridx_main_v19 i k = ix2 k (i 1) := fun k =>
    funext fun a => Fin.ext (by match a with | ⟨0, _⟩ => rfl | ⟨1, _⟩ => rfl)
  -- the twice-broadcast bias at i is the bias at i's column
  have eb : idx_main_v20 (idx_main_v21 i) = ix1 (i 1) :=
    funext fun a => Fin.ext (by match a with | ⟨0, _⟩ => rfl)
  rw [val_main_v23_apply, val_main_v22_apply, val_main_v19_apply, val_main_v21_apply, val_main_v20_apply]
  simp only [el, er, eb, Ideal.hostUnary_tanh_def, Ideal.addf_def]
  rfl

end Cert.ReferenceIdeal.RefValue

end
-- ==== Proof.WeightsAgree.lean ====
/-
  Both programs build the same weight matrix.

  Before anything else each program normalises the 400000 index pairs (a negative row index is shifted by 10000, a
  negative column index by 5000), and scatter-adds the 400000 stored values into a zero 10000 × 5000 matrix at those
  pairs. The two programs print these lines identically, so the matrix the kernel's region finds in the scatter's
  buffer is, term for term, the reference's scatter stage of the same arguments.
-/
import proofs.«180887_j10359461117965_1_alg».proof.Proof.Gen.KernelIdeal.Frame
import proofs.«180887_j10359461117965_1_alg».proof.Proof.Gen.ReferenceIdeal.Read
import Idealize.ShloMosaic.Lib.StableHlo.Run

noncomputable section

namespace Cert.KernelIdeal.Weights

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 2000000 in
/-- The scattered weight matrix as the kernel's region finds it is the reference's scatter stage of the stored values
    and the index pairs. -/
theorem dense_eq (c : Dev nD) :
    @Eq (FVec Ideal S10000x5000 .f32) (V m c main_v18)
      (Cert.ReferenceIdeal.Read.val_main_v18 (F := Ideal) (m ((c : Thread nD τ).loc main_arg1))
        (m ((c : Thread nD τ).loc main_arg3))) := by
  dsimp only [V, V0]
  simp only [hostOps0, hostOps0_1, hostOps0_2, hostOps0_3, hostOps0_4, List.flatten_cons, List.flatten_nil,
    List.append_nil, List.cons_append, List.nil_append]
  after_results <;> rfl

end Cert.KernelIdeal.Weights

end
-- ==== Proof.BodyValue.lean ====
/-
  What the kernel body computes on one block, read at an index.

  The body loads a 256 × 10000 block `a` of the inputs, a 10000 × 512 block `w` of the weights and a 1 × 512 block
  `b` of the bias row, and stores tanh (a · w + b) as a 256 × 512 block, the bias row repeated down the 256 rows.
  On the extended reals, at block entry (p, q):

      tanh ( (Σ_k a[p, k] · w[k, q]) + b[0, q] ),     k over the 10000 features.

  The matrix unit accumulates into a zero block, so its result is the bare sum; the sum over the contraction index
  type is re-indexed to a sum over `Fin 10000`; the shape casts in the body are casts of a shape to itself.
-/
import proofs.«180887_j10359461117965_1_alg».proof.Proof.Gen.KernelIdeal.Skeleton
import proofs.«180887_j10359461117965_1_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx
open scoped BigOperators

/-- Left operand index of the block product: its row coordinate is the output's row. -/
theorem lhs_row (j : S256x512.Idx) (q : dot_S256x10000_S10000x512_S256x512_1_0_0_1_n_n.contr.Idx) :
    (dot_S256x10000_S10000x512_S256x512_1_0_0_1_n_n.lhsIdx j q 0).val = (j 0).val := by
  unfold DotDims.lhsIdx
  rw [dif_neg (show ¬(0 : Fin S256x10000.rank) ∈ dot_S256x10000_S10000x512_S256x512_1_0_0_1_n_n.lhsBatch by decide),
    dif_pos (show (0 : Fin S256x10000.rank) ∈ dot_S256x10000_S10000x512_S256x512_1_0_0_1_n_n.lhsNonContracting by decide)]
  rfl
/-- Its feature coordinate is the contraction position. -/
theorem lhs_feat (j : S256x512.Idx) (q : dot_S256x10000_S10000x512_S256x512_1_0_0_1_n_n.contr.Idx) :
    (dot_S256x10000_S10000x512_S256x512_1_0_0_1_n_n.lhsIdx j q 1).val = (q ⟨0, by decide⟩).val :=
  dot_S256x10000_S10000x512_S256x512_1_0_0_1_n_n.lhsIdx_val_of_single rfl j q
/-- Right operand index: its feature coordinate is the contraction position, -/
theorem rhs_feat (j : S256x512.Idx) (q : dot_S256x10000_S10000x512_S256x512_1_0_0_1_n_n.contr.Idx) :
    (dot_S256x10000_S10000x512_S256x512_1_0_0_1_n_n.rhsIdx j q 0).val = (q ⟨0, by decide⟩).val :=
  dot_S256x10000_S10000x512_S256x512_1_0_0_1_n_n.rhsIdx_val_of_single rfl j q
/-- and its column coordinate is the output's column. -/
theorem rhs_col (j : S256x512.Idx) (q : dot_S256x10000_S10000x512_S256x512_1_0_0_1_n_n.contr.Idx) :
    (dot_S256x10000_S10000x512_S256x512_1_0_0_1_n_n.rhsIdx j q 1).val = (j 1).val := by
  unfold DotDims.rhsIdx
  rw [dif_neg (show ¬(1 : Fin S10000x512.rank) ∈ dot_S256x10000_S10000x512_S256x512_1_0_0_1_n_n.rhsBatch by decide),
    dif_pos (show (1 : Fin S10000x512.rank) ∈ dot_S256x10000_S10000x512_S256x512_1_0_0_1_n_n.rhsNonContracting by decide)]
  rfl

/-- The block product at (p, q) is the sum over the features k of a[p, k] · w[k, q]. -/
theorem matmul_at (a : FVec Ideal S256x10000 .bf16) (w : FVec Ideal S10000x512 .bf16) (j : S256x512.Idx) :
    FloatOps.matmul dot_S256x10000_S10000x512_S256x512_1_0_0_1_n_n none a w (constant (F := Ideal) S256x512 .f32 0x00000000#32) j
      = ∑ k : Fin 10000, a (ix2 (j 0) k) * w (ix2 k (j 1)) := by
  rw [Ideal.matmul_constant_zero_apply,
    ← Equiv.sum_comp (contrEquiv1 dot_S256x10000_S10000x512_S256x512_1_0_0_1_n_n 10000 rfl rfl).symm]
  refine Finset.sum_congr rfl fun k _ => ?_
  have hk := contrEquiv1_symm_val dot_S256x10000_S10000x512_S256x512_1_0_0_1_n_n 10000 rfl rfl k
  have el : dot_S256x10000_S10000x512_S256x512_1_0_0_1_n_n.lhsIdx j
      ((contrEquiv1 dot_S256x10000_S10000x512_S256x512_1_0_0_1_n_n 10000 rfl rfl).symm k) = ix2 (j 0) k :=
    funext fun d => Fin.ext (by
      match d with
      | ⟨0, _⟩ => exact lhs_row _ _
      | ⟨1, _⟩ => exact (lhs_feat _ _).trans hk)
  have er : dot_S256x10000_S10000x512_S256x512_1_0_0_1_n_n.rhsIdx j
      ((contrEquiv1 dot_S256x10000_S10000x512_S256x512_1_0_0_1_n_n 10000 rfl rfl).symm k) = ix2 k (j 1) :=
    funext fun d => Fin.ext (by
      match d with
      | ⟨0, _⟩ => exact (rhs_feat _ _).trans hk
      | ⟨1, _⟩ => exact rhs_col _ _)
  rw [el, er]
  rfl

/-- The bias row repeated down the block: entry (p, q) is b[0, q]. -/
theorem biasRow_at (b : Vec Ideal S1x512 .f32) (j : S256x512.Idx) :
    broadcastTo S256x512 b broadcasts_S1x512_S256x512 j = b (ix2 (0 : Fin 1) (j 1)) :=
  broadcastTo_apply b broadcasts_S1x512_S256x512 j (ix2 (0 : Fin 1) (j 1)) (fun d => match d with
    | ⟨0, _⟩ => by show (0 : ℕ) = if (1 : ℕ) = 1 then 0 else _; rw [if_pos rfl]
    | ⟨1, _⟩ => by show (j 1).val = if (512 : ℕ) = 1 then 0 else (j 1).val; rw [if_neg (by decide)])

/-- The stored block at (p, q): tanh of the feature sum plus the bias entry of column q. -/
theorem pay_apply (x0 : Vec Ideal S256x10000 .bf16) (x1 : Vec Ideal S10000x512 .bf16) (x2 : Vec Ideal S1x512 .f32)
    (j : S256x512.Idx) :
    k0_pay1 (F := Ideal) x0 x1 x2 j
      = Ideal.tanh ((∑ k : Fin 10000, x0 (ix2 (j 0) k) * x1 (ix2 k (j 1))) + x2 (ix2 (0 : Fin 1) (j 1))) := by
  unfold k0_pay1
  simp only [shapeCast_self]
  show Ideal.tanh (FloatOps.matmul dot_S256x10000_S10000x512_S256x512_1_0_0_1_n_n none x0 x1
        (constant (F := Ideal) S256x512 .f32 0x00000000#32) j
      + broadcastTo S256x512 x2 broadcasts_S1x512_S256x512 j) = _
  rw [matmul_at, biasRow_at]

/-- A stored block entry is an entry of the wide dense layer: if, at block entry `j` and array entry `i`, row `j 0` of the
    input block is row `i 0` of the input array, column `j 1` of the weight block is column `i 1` of the weight array, and
    likewise for the bias row, then the block's entry `j` is the wide layer's entry `i`. -/
theorem block_entry (A : FVec Ideal S1024x10000 .bf16) (B : FVec Ideal S10000x5120 .bf16) (R : FVec Ideal S1x5120 .f32)
    (x0 : Vec Ideal S256x10000 .bf16) (x1 : Vec Ideal S10000x512 .bf16) (x2 : Vec Ideal S1x512 .f32)
    (i : S1024x5120.Idx) (j : S256x512.Idx)
    (h0 : ∀ k : Fin 10000, x0 (ix2 (j 0) k) = A (ix2 (i 0) k))
    (h1 : ∀ k : Fin 10000, x1 (ix2 k (j 1)) = B (ix2 k (i 1)))
    (h2 : x2 (ix2 (0 : Fin 1) (j 1)) = R (ix2 (0 : Fin 1) (i 1))) :
    k0_pay1 (F := Ideal) x0 x1 x2 j = Cert.DenseTanh.layerWide A B R i := by
  rw [pay_apply]
  show _ = Ideal.tanh ((∑ k : Fin 10000, A (ix2 (i 0) k) * B (ix2 k (i 1))) + R (ix2 (0 : Fin 1) (i 1)))
  rw [h2]
  exact congrArg (fun s => Ideal.tanh (s + R (ix2 (0 : Fin 1) (i 1))))
    (Finset.sum_congr rfl fun k _ => by rw [h0 k, h1 k])

end Cert.KernelIdeal.Body

end
-- ==== Proof.RegionValue.lean ====
/-
  The array the kernel's region writes, as one function of the three arrays it reads.

  The grid has 4 × 10 points. At point (i, j) the body sees rows 256·i … 256·i + 255 of the inputs (all 10000
  features), columns 512·j … 512·j + 511 of the padded weights (all features) and of the bias row, and writes the
  256 × 512 block at block position (i, j) of the 1024 × 5120 output. Block entry (p, q) is therefore the wide dense
  layer's entry (256·i + p, 512·j + q): the input block's row p is the array's row 256·i + p, the weight block's column q
  the array's column 512·j + q, and likewise for the bias row. The 40 blocks tile the output, so after the run the
  whole array is the wide dense layer of the three arrays as the region found them.
-/
import proofs.«180887_j10359461117965_1_alg».proof.Proof.Gen.KernelIdeal.Frame
import proofs.«180887_j10359461117965_1_alg».proof.Proof.BodyValue
import proofs.«180887_j10359461117965_1_alg».proof.Proof.Spec
import Idealize.ShloMosaic.Lib.Pipeline.Value
import Idealize.ShloMosaic.Lib.ValueIdx

noncomputable section

namespace Cert.KernelIdeal.Region

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

theorem zeroOffsets : (![0, 0] : Fin 2 → Nat) = fun _ => 0 := funext fun a => by fin_cases a <;> rfl

/-- The wide dense layer of the three arrays as the region finds them. -/
abbrev wide (c : Dev nD) : FVec Ideal S1024x5120 .f32 :=
  Cert.DenseTanh.layerWide (V m c main_v22) (V m c main_v23) (V m c main_v21)

/-- The block positions at each of the 40 points: the inputs' block follows the output's row block and sits at feature
    block 0; the weights' and the bias row's blocks sit at row block 0 and follow the output's column block; the output's
    block position stays within 4 × 10. -/
theorem blockPositions : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 3 ∧ win0_3.index t (1 : Fin 2) ≤ 9 :=
  (by decide +kernel : ∀ t : Fin grid0.N, _)

/-- Every block position of the 4 × 10 tiling is some point's. -/
theorem everyBlock : ∀ (q0 : Fin 4) (q1 : Fin 10), ∃ t : Fin cfg0.N, win0_3.index t = ![q0.val, q1.val] :=
  (by decide +kernel : ∀ (q0 : Fin 4) (q1 : Fin 10), ∃ t : Fin grid0.N, win0_3.index t = ![q0.val, q1.val])

set_option maxHeartbeats 1000000 in
/-- What point `t` writes back is block `t` of the wide dense layer. -/
theorem flushed_eq (c : Dev nD) (t : Fin cfg0.N) :
    (dats m 0 c).flushed 3 t = ((cfg0.win 3).blk t).view.read (Elt Ideal) (wide m c) := by
  show (cfg0.win 3).cut (grid0.coords t) ((dats m 0 c).after 3 t) = _
  rw [after0_3]
  unfold out0_3
  rw [View.canon_unit_zero zeroOffsets]
  simp only [View.ld_unit_zero (S := S256x10000) zeroOffsets, View.ld_unit_zero (S := S10000x512) zeroOffsets,
    View.ld_unit_zero (S := S1x512) zeroOffsets]
  obtain ⟨e0, e1, e2, e3, e4, e5, -, -⟩ := blockPositions t
  funext j
  refine Cert.KernelIdeal.Body.block_entry (V m c main_v22) (V m c main_v23) (V m c main_v21)
    (iblk m c 0 t) (iblk m c 1 t) (iblk m c 2 t) (((cfg0.win 3).blk t).view.emb j) j (fun k => ?_) (fun k => ?_) ?_
  · -- row `j 0` of the input block is row 256·(row block) + `j 0` of the inputs, all features
    show V m c main_v22 (((cfg0.win 0).blk t).view.emb (ix2 (j 0) k))
      = V m c main_v22 (ix2 ((((cfg0.win 3).blk t).view.emb j) 0) k)
    refine congrArg (V m c main_v22) (funext fun a => Fin.ext ?_)
    match a with
    | ⟨0, _⟩ => show win0_0.index t (0 : Fin 2) * 256 + 1 * (j 0).val = win0_3.index t (0 : Fin 2) * 256 + 1 * (j 0).val; omega
    | ⟨1, _⟩ => show win0_0.index t (1 : Fin 2) * 10000 + 1 * k.val = k.val; omega
  · -- column `j 1` of the weight block is column 512·(column block) + `j 1` of the weights, all features
    show V m c main_v23 (((cfg0.win 1).blk t).view.emb (ix2 k (j 1)))
      = V m c main_v23 (ix2 k ((((cfg0.win 3).blk t).view.emb j) 1))
    refine congrArg (V m c main_v23) (funext fun a => Fin.ext ?_)
    match a with
    | ⟨0, _⟩ => show win0_1.index t (0 : Fin 2) * 10000 + 1 * k.val = k.val; omega
    | ⟨1, _⟩ => show win0_1.index t (1 : Fin 2) * 512 + 1 * (j 1).val = win0_3.index t (1 : Fin 2) * 512 + 1 * (j 1).val; omega
  · -- and the same column of the bias row
    show V m c main_v21 (((cfg0.win 2).blk t).view.emb (ix2 (0 : Fin 1) (j 1)))
      = V m c main_v21 (ix2 (0 : Fin 1) ((((cfg0.win 3).blk t).view.emb j) 1))
    refine congrArg (V m c main_v21) (funext fun a => Fin.ext ?_)
    match a with
    | ⟨0, _⟩ => show win0_2.index t (0 : Fin 2) * 1 + 1 * 0 = 0; omega
    | ⟨1, _⟩ => show win0_2.index t (1 : Fin 2) * 512 + 1 * (j 1).val = win0_3.index t (1 : Fin 2) * 512 + 1 * (j 1).val; omega

/-- An index of the output is in point `t`'s block iff each coordinate is in the block's range on its axis. -/
theorem mem_blk (t : Fin cfg0.N) (i : S1024x5120.Idx) :
    i ∈ ((cfg0.win 3).blk t).view.set ↔ ∀ a : Fin 2, win0_3.index t a * S256x512.size a ≤ (i a).val
      ∧ (i a).val < win0_3.index t a * S256x512.size a + S256x512.size a := by
  show i ∈ ((View.whole main_v24).slice (win0_3.rect t)).set ↔ _
  rw [View.set_slice_whole, Rect.mem_set_unit]
  exact Iff.rfl

/-- Every index of the output lies in the block of the point at block position (row / 256, column / 512). -/
theorem covered (i : S1024x5120.Idx) :
    ∃ t : Fin cfg0.N, (cfg0.win 3).flush t = true ∧ i ∈ ((cfg0.win 3).blk t).view.set := by
  have hi0 : (i 0).val < 1024 := (i 0).isLt
  have hi1 : (i 1).val < 5120 := (i 1).isLt
  obtain ⟨t, ht⟩ := everyBlock ⟨(i 0).val / 256, by omega⟩ ⟨(i 1).val / 512, by omega⟩
  have q0 : win0_3.index t (0 : Fin 2) = (i 0).val / 256 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 512 ≤ (i 1).val ∧ (i 1).val < win0_3.index t (1 : Fin 2) * 512 + 512; omega

/-- The output array after the run is the wide dense layer. -/
theorem final (c : Dev nD) : (dats m 0 c).arrAt 3 cfg0.N = wide m c :=
  (dats m 0 c).arrAt_eq_of_cover 3 (wide m c) (fun t _ => flushed_eq m c t) covered

end Cert.KernelIdeal.Region

end
-- ==== Proof.EntryArrays.lean ====
/-
  The three arrays the kernel's region reads, as the host lines before it leave them.

  * the inputs, cast to bf16: on the extended reals the cast is the identity, so this is the input array itself;
  * the weights: the scattered 10000 × 5000 matrix padded on the right with 120 columns and cast to bf16; an entry
    in one of the first 5000 columns is the scattered matrix's entry (the padding value is never looked at);
  * the bias: padded on the right with 120 entries and reshaped to one row of 5120; entry (0, u) of the row, for
    u below 5000, is the bias's entry u.
-/
import proofs.«180887_j10359461117965_1_alg».proof.Proof.Gen.KernelIdeal.Frame
import proofs.«180887_j10359461117965_1_alg».proof.Proof.Spec
import Idealize.ShloMosaic.Lib.StableHlo.Run
import Idealize.ShloMosaic.Lib.Pipeline.Value
import Idealize.ShloMosaic.Lib.ValueIdx
import Idealize.ShloMosaic.Lib.KernelVsHost

noncomputable section

namespace Cert.KernelIdeal.Entry

open Cert.KernelIdeal Cert.KernelIdeal.Gen
open Idealize.ShloMosaic Idealize.ShloMosaic.TcCoe Idealize.SL.Sem Idealize.ShloMosaic.StableHlo
open Idealize.ShloMosaic.ValueIdx
open Cert.DenseTanh (widen)

variable (m : (ℓ : Loc nD τ sig) → Buf (Elt Ideal) ℓ)

/-- The inputs as the region finds them: the launched inputs, cast to bf16. -/
theorem inputs_eq (c : Dev nD) :
    @Eq (FVec Ideal S1024x10000 .bf16) (V m c main_v22)
      (truncf .bf16 (m ((c : Thread nD τ).loc main_arg0) : FVec Ideal S1024x10000 .f32) bitsLt_bf16_f32) := by
  dsimp only [V, V0]
  simp only [hostOps0, hostOps0_1, hostOps0_2, hostOps0_3, hostOps0_4, List.flatten_cons, List.flatten_nil,
    List.append_nil, List.cons_append, List.nil_append]
  after_results <;> rfl

set_option maxHeartbeats 2000000 in
/-- The weights as the region finds them: the scattered matrix, padded on the right with some value, cast to bf16. -/
theorem weights_eq (c : Dev nD) : ∃ v : FVec Ideal S_ .f32,
    @Eq (FVec Ideal S10000x5120 .bf16) (V m c main_v23)
      (truncf .bf16 (pad S10000x5120 ![0, 0] ![0, 120] ![0, 0] (V m c main_v18 : FVec Ideal S10000x5000 .f32) v
          pads_S10000x5000_S10000x5120_000_01200 h_S_ : FVec Ideal S10000x5120 .f32) bitsLt_bf16_f32) := by
  refine ⟨?_, ?_⟩
  rotate_left
  · dsimp only [V, V0]
    simp only [hostOps0, hostOps0_1, hostOps0_2, hostOps0_3, hostOps0_4, List.flatten_cons, List.flatten_nil,
      List.append_nil, List.cons_append, List.nil_append]
    after_results <;> rfl

set_option maxHeartbeats 2000000 in
/-- The bias row as the region finds it: the bias padded on the right with some value, as one row. -/
theorem biasRow_eq (c : Dev nD) : ∃ v : FVec Ideal S_ .f32,
    @Eq (FVec Ideal S1x5120 .f32) (V m c main_v21)
      (shapeCast S1x5120 (pad S5120 ![0] ![120] ![0] (m ((c : Thread nD τ).loc main_arg2) : FVec Ideal S5000 .f32) v
          pads_S5000_S5120_01200 h_S_ : FVec Ideal S5120 .f32) shapeCasts_S5120_S1x5120) := by
  refine ⟨?_, ?_⟩
  rotate_left
  · dsimp only [V, V0]
    simp only [hostOps0, hostOps0_1, hostOps0_2, hostOps0_3, hostOps0_4, List.flatten_cons, List.flatten_nil,
      List.append_nil, List.cons_append, List.nil_append]
    after_results <;> rfl

/-- The inputs as the region finds them are the inputs as launched, entry by entry. -/
theorem inputs_at (c : Dev nD) (i : S1024x10000.Idx) :
    V m c main_v22 i = m ((c : Thread nD τ).loc main_arg0) i := by
  rw [inputs_eq m c]; rfl

/-- The weights as the region finds them, on one of the first 5000 columns: the scattered matrix there. -/
theorem weights_at (c : Dev nD) (k : Fin 10000) (u : Fin 5000) :
    V m c main_v23 (ix2 k (widen u)) = V m c main_v18 (ix2 k u) := by
  obtain ⟨v, e⟩ := weights_eq m c
  rw [e]
  show pad S10000x5120 ![0, 0] ![0, 120] ![0, 0] (V m c main_v18 : FVec Ideal S10000x5000 .f32) v
      pads_S10000x5000_S10000x5120_000_01200 h_S_ (ix2 k (widen u)) = _
  exact pad_apply_of_inside ![0, 0] ![0, 120] ![0, 0] (V m c main_v18 : FVec Ideal S10000x5000 .f32) v
    pads_S10000x5000_S10000x5120_000_01200 h_S_ (ix2 k (widen u)) (ix2 k u) (fun a => match a with
      | ⟨0, _⟩ => by show k.val = 0 + k.val * (0 + 1); omega
      | ⟨1, _⟩ => by show u.val = 0 + u.val * (0 + 1); omega)

/-- The bias row as the region finds it, at a column below 5000: the bias's entry. -/
theorem biasRow_at (c : Dev nD) (u : Fin 5000) :
    V m c main_v21 (ix2 (0 : Fin 1) (widen u)) = m ((c : Thread nD τ).loc main_arg2) (ix1 u) := by
  obtain ⟨v, e⟩ := biasRow_eq m c
  rw [e]
  -- the one row of 5120 at (0, u) is the padded vector at u: the same row-major position
  rw [shapeCast_apply _ shapeCasts_S5120_S1x5120 (ix2 (0 : Fin 1) (widen u)) (ix1 (widen u))
    (by rw [Shape.rowMajor_val_one, Shape.rowMajor_val_two]; show u.val = 0 * 5120 + u.val; omega)]
  exact pad_apply_of_inside ![0] ![120] ![0] (m ((c : Thread nD τ).loc main_arg2) : FVec Ideal S5000 .f32) v
    pads_S5000_S5120_01200 h_S_ (ix1 (widen u)) (ix1 u) (fun a => match a with
      | ⟨0, _⟩ => by show u.val = 0 + u.val * (0 + 1); omega)

end Cert.KernelIdeal.Entry

end
-- ==== Proof.KernelRun.lean ====
/-
  The idealized kernel's run: its result is the dense layer.

  After the region, one host line keeps the first 5000 columns of the 1024 × 5120 array the region wrote. That array is
  the wide dense layer of the three arrays the region read; on a kept column those three arrays are the launched inputs,
  the scattered weights and the bias; so the kept entry (r, u) is the dense layer's entry (r, u). The argument arrays
  end as launched: no host line writes them and no window writes back to them.
-/
import proofs.«180887_j10359461117965_1_alg».proof.Proof.Gen.KernelIdeal.Frame
import proofs.«180887_j10359461117965_1_alg».proof.Proof.RegionValue
import proofs.«180887_j10359461117965_1_alg».proof.Proof.EntryArrays
import proofs.«180887_j10359461117965_1_alg».proof.Proof.Spec
import Idealize.ShloMosaic.Lib.StableHlo.Run
import Idealize.ShloMosaic.Lib.Pipeline.Value
import Idealize.ShloMosaic.Lib.ValueIdx

noncomputable section

namespace Cert.KernelIdeal.Result

open Cert.KernelIdeal Cert.KernelIdeal.Gen
open Idealize.ShloMosaic Idealize.ShloMosaic.TcCoe Idealize.SL.Sem Idealize.ShloMosaic.StableHlo
open Idealize.ShloMosaic.ValueIdx
open Cert.DenseTanh (widen layer layerWide layerWide_eq)

variable (m : (ℓ : Loc nD τ sig) → Buf (Elt Ideal) ℓ) (ρ : Dev nD → PrngReg)

/-- The dense layer of the launched inputs, the scattered weights as the region finds them, and the launched bias. -/
abbrev value (c : Dev nD) : FVec Ideal S1024x5000 .f32 :=
  layer (m ((c : Thread nD τ).loc main_arg0)) (V m c main_v18) (m ((c : Thread nD τ).loc main_arg2))

/-- What the line after the region leaves in the result buffer is the dense layer. -/
theorem result_eq (c : Dev nD) :
    @Eq (FVec Ideal S1024x5000 .f32) (Pipeline.afterTail₀ cfgs (dats m) 0 (V0 m) [hostOps1] c main_v25) (value m c) := by
  unfold Pipeline.afterTail₀
  show StableHlo.after hostOps1 _ (Proc.devRef .tc main_v25) = _
  after_results
  have hw : @Eq (FVec Ideal S1024x5120 .f32)
      (Pipeline.withArrays (cfgs 0).spec c (V0 m c) (fun w => (dats m 0 c).arrAt w (cfgs 0).N) (Proc.devRef .tc main_v24))
      (Region.wide m c) :=
    (Pipeline.withArrays_arr spec0 launch0.win.arr_inj c _ _ 3).trans (Region.final m c)
  rw [hw]
  funext i
  rw [extractStridedSlice_apply ![0, 0] (Region.wide m c) slices_S1024x5120_S1024x5000_0_0 i
    (ix2 (i 0) (widen (i 1))) (fun a => match a with
      | ⟨0, _⟩ => by show (i 0).val = 0 + (i 0).val; omega
      | ⟨1, _⟩ => by show (i 1).val = 0 + (i 1).val; omega)]
  exact (layerWide_eq (m ((c : Thread nD τ).loc main_arg0)) (V m c main_v18) (m ((c : Thread nD τ).loc main_arg2))
      (V m c main_v22) (V m c main_v23) (V m c main_v21)
      (fun r k => Entry.inputs_at m c (ix2 r k)) (fun k u => Entry.weights_at m c k u) (fun u => Entry.biasRow_at m c u)
      (i 0) (i 1)).trans (congrArg (value m c) (eq_ix2 i).symm)

/-- Every weakly fair execution of the idealized kernel terminates with the result buffer at the dense layer and the
    argument arrays as launched. -/
theorem run : θ_run defs (onTc (τ := τ) (main (F := Ideal))) ⟨m, fun _ => 0, ρ⟩ fun r => ∀ c : Dev nD,
      r.2.mem ((c.tc : Thread nD τ).loc main_v25) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v25 (Pipeline.mem_restRefs_of main_v25 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/-
  A dense layer with a tanh activation, computed two ways, agrees on the extended reals.

  Both programs first scatter-add 400000 stored values into a zero 10000 × 5000 weight matrix `w` at 400000 index
  pairs (the same lines in both), and both return, for 1024 batch rows `r` and 5000 units `u`,

      out[r, u] = tanh ( (Σ_k x[r, k] · w[k, u]) + b[u] ),     k over the 10000 input features.

  The reference does it with one matrix product, a broadcast bias and a tanh. The kernel pads the weights and the bias
  with 120 extra columns to 5120, casts inputs and weights to bf16 (the identity on the extended reals), computes
  tanh (x · w + b) block by block on a 4 × 10 grid of 256 × 512 output blocks — each block from 256 whole rows of the inputs
  and 512 whole columns of the weights, the matrix unit accumulating into zero — and finally keeps the first 5000
  columns. A kept entry (r, u) reads only column u of the padded weights and entry u of the padded bias, which are the
  unpadded ones, and sums over the same 10000 features; so the two results are equal entry by entry with no law of
  arithmetic used, and in particular without using that the inputs are finite.

  Proof/Spec.lean states the function; Proof/RefLayer.lean shows the reference computes it; Proof/BodyValue.lean reads one
  block of the kernel body at an index; Proof/RegionValue.lean assembles the 40 blocks into the 1024 × 5120 array;
  Proof/EntryArrays.lean reads the padded operands; Proof/KernelRun.lean takes the kept columns; Proof/WeightsAgree.lean
  identifies the two programs' weight matrices. The three runs terminate without fault and leave the arguments
  unchanged (the kernel's two by their frame theorems, the reference's by its run); the idealized kernel is the printed
  kernel's own text read on the extended reals, no operation rewritten, so there is nothing to preserve.
-/
import proofs.«180887_j10359461117965_1_alg».proof.Defs
import proofs.«180887_j10359461117965_1_alg».proof.Proof.Gen.Kernel
import proofs.«180887_j10359461117965_1_alg».proof.Proof.Gen.Kernel.Skeleton
import proofs.«180887_j10359461117965_1_alg».proof.Proof.Gen.Kernel.Launch
import proofs.«180887_j10359461117965_1_alg».proof.Proof.Gen.Kernel.Points
import proofs.«180887_j10359461117965_1_alg».proof.Proof.Gen.Kernel.Frame
import proofs.«180887_j10359461117965_1_alg».proof.Proof.Gen.KernelIdeal
import proofs.«180887_j10359461117965_1_alg».proof.Proof.Gen.KernelIdeal.Skeleton
import proofs.«180887_j10359461117965_1_alg».proof.Proof.Gen.KernelIdeal.Launch
import proofs.«180887_j10359461117965_1_alg».proof.Proof.Gen.KernelIdeal.Points
import proofs.«180887_j10359461117965_1_alg».proof.Proof.Gen.KernelIdeal.Frame
import proofs.«180887_j10359461117965_1_alg».proof.Proof.Gen.ReferenceIdeal
import proofs.«180887_j10359461117965_1_alg».proof.Proof.Gen.ReferenceIdeal.Run
import proofs.«180887_j10359461117965_1_alg».proof.Proof.Gen.ReferenceIdeal.Read
import proofs.«180887_j10359461117965_1_alg».proof.Proof.Gen.Pre_finite_inputs
import proofs.«180887_j10359461117965_1_alg».proof.Proof.RefLayer
import proofs.«180887_j10359461117965_1_alg».proof.Proof.WeightsAgree
import proofs.«180887_j10359461117965_1_alg».proof.Proof.KernelRun
import Idealize.ShloMosaic.Adequacy
import Idealize.ShloMosaic.Init

noncomputable section

namespace Cert.Proof

open Idealize.ShloMosaic Idealize.SL.Sem

/-- The printed kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the dense layer of the inputs, the scattered
    weights and the bias in their result buffers: the kernel by its run, the reference by its run read at an index, the
    two weight matrices being one term. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v23_eq _ _ _ _).trans
    ((Cert.ReferenceIdeal.RefValue.result_eq _ _ _ _).trans
      (congrArg (fun w => Cert.DenseTanh.layer _ w _) (Cert.KernelIdeal.Weights.dense_eq m c).symm))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
